-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4096 : Shape := ⟨3, ![32, 512, 4096]⟩
abbrev S4096 : Shape := ⟨1, ![4096]⟩
abbrev S_ : Shape := ⟨0, ![]⟩

class Facts : Prop where
  bcast_S_S32x512x4096 : S_.BroadcastsInDim S32x512x4096 (![] : Fin 0 → Fin S32x512x4096.rank)
  reducesTo_S32x512x4096_S_d0_1_2 : S32x512x4096.ReducesTo [0, 1, 2] S_
  h_S_ : 0 < S_.numel

variable [Facts]

def fn {F : FTy → Type} [FloatOps F] (main_arg0 : FVec F S32x512x4096 .f32) (main_arg1 : IVec S4096 32) (main_arg2 : IVec S4096 32) : IVec S_ 1 :=
  let main_v0 : FVec F S32x512x4096 .f32 := Host.absf main_arg0
  let main_cst : FVec F S_ .f32 := constant S_ .f32 0x7F800000#32
  let main_v1 : FVec F S32x512x4096 .f32 := broadcastInDim S32x512x4096 ![] bcast_S_S32x512x4096 main_cst
  let main_v2 : IVec S32x512x4096 1 := cmpf .olt main_v0 main_v1
  let main_c : IVec S_ 1 := constantI S_ 1 1#1
  let main_v3 : IVec S_ 1 := (fun x v => Host.reduce IntOp.andi x v reducesTo_S32x512x4096_S_d0_1_2 h_S_) main_v2 main_c
  main_v3
-- ==== Kernel.lean ====
abbrev S32x512x4096 : Shape := ⟨3, ![32, 512, 4096]⟩
abbrev S4096 : Shape := ⟨1, ![4096]⟩
abbrev S_ : Shape := ⟨0, ![]⟩
abbrev S1x1x4096 : Shape := ⟨3, ![1, 1, 4096]⟩
abbrev S1x128x4096 : Shape := ⟨3, ![1, 128, 4096]⟩

abbrev nBuf : Space → Nat
  | .hbm => 48
  | .vmem => 7
  | .smem => 0
  | _ => 0

abbrev bufTy : (tb : Table) → Fin (tcTables nBuf tb) → BufTy
  | .hbm, ⟨0, _⟩ => ⟨S32x512x4096, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S4096, .i1⟩
  | .hbm, ⟨36, _⟩ => ⟨S4096, .f32⟩
  | .hbm, ⟨37, _⟩ => ⟨S1x1x4096, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S4096, .f32⟩
  | .hbm, ⟨43, _⟩ => ⟨S1x1x4096, .f32⟩
  | .hbm, ⟨44, _⟩ => ⟨S4096, .i1⟩
  | .hbm, ⟨45, _⟩ => ⟨S4096, .f32⟩
  | .hbm, ⟨46, _⟩ => ⟨S1x1x4096, .f32⟩
  | .hbm, ⟨47, _⟩ => ⟨S32x512x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x128x4096, .f32⟩
  | .local _ .vmem, ⟨6, _⟩ => ⟨S1x128x4096, .f32⟩
  | _, _ => ⟨S32x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_call2_v0 : Ref sig .tc := ⟨.hbm, 25, rfl⟩
abbrev main_call2_v1 : Ref sig .tc := ⟨.hbm, 26, rfl⟩
abbrev main_v11 : Ref sig .tc := ⟨.hbm, 27, rfl⟩
abbrev main_c_6 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_7 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_8 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S4096 : S_.BroadcastsInDim S4096 (![] : Fin 0 → Fin S4096.rank)
  shapeCasts_S4096_S1x1x4096 : S4096.ShapeCasts S1x1x4096
  inb_S1x128x4096_S1x128x4096_0_0_0 : ∀ a, (![0, 0, 0] : Fin 3 → Nat) a + S1x128x4096.size a ≤ S1x128x4096.size a
  h_S1x128x4096 : 0 < S1x128x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  broadcasts_S1x1x4096_S1x128x4096 : S1x1x4096.Broadcasts S1x128x4096
  rotates_S1x128x4096_d2 : S1x128x4096.Rotates 2 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S32x512x4096.size a
  hwx0_0 : ∀ i : grid0.Coords, EltTy.bits .f32 = 32 ∨ (Rect.block (s := S32x512x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S1x1x4096.size a
  hwx0_1 : ∀ i : grid0.Coords, EltTy.bits .f32 = 32 ∨ (Rect.block (s := S1x1x4096) S1x1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S1x1x4096.size a
  hwx0_2 : ∀ i : grid0.Coords, EltTy.bits .f32 = 32 ∨ (Rect.block (s := S1x1x4096) S1x1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S1x1x4096.size a
  hwx0_3 : ∀ i : grid0.Coords, EltTy.bits .f32 = 32 ∨ (Rect.block (s := S1x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S32x512x4096.size a
  hwx0_4 : ∀ i : grid0.Coords, EltTy.bits .f32 = 32 ∨ (Rect.block (s := S32x512x4096) S1x128x4096.size (cc0_transform_4 i) (hinb0_4 i)).WholeWords (EltTy.packing .f32)

variable [Facts₀]

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x4096 : Shape := ⟨3, ![32, 512, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S32x512x4096, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S1, .i32⟩
  | .hbm, ⟨41, _⟩ => ⟨S_, .i32⟩
  | .hbm, ⟨42, _⟩ => ⟨S4096x1, .i32⟩
  | .hbm, ⟨43, _⟩ => ⟨S4096x1, .i1⟩
  | .hbm, ⟨44, _⟩ => ⟨S1x1, .i32⟩
  | .hbm, ⟨45, _⟩ => ⟨S4096x1, .i32⟩
  | .hbm, ⟨46, _⟩ => ⟨S4096x1, .i1⟩
  | .hbm, ⟨47, _⟩ => ⟨S4096x1, .i1⟩
  | .hbm, ⟨48, _⟩ => ⟨S_, .i1⟩
  | .hbm, ⟨49, _⟩ => ⟨S4096, .i1⟩
  | .hbm, ⟨50, _⟩ => ⟨S32x512x4096, .f32⟩
  | .hbm, ⟨51, _⟩ => ⟨S32x512x4096, .i1⟩
  | .hbm, ⟨52, _⟩ => ⟨S_, .f32⟩
  | .hbm, ⟨53, _⟩ => ⟨S32x512x4096, .f32⟩
  | .hbm, ⟨54, _⟩ => ⟨S32x512x4096, .f32⟩
  | _, _ => ⟨S32x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_call2_v0 : Ref sig .tc := ⟨.hbm, 25, rfl⟩
abbrev main_call2_v1 : Ref sig .tc := ⟨.hbm, 26, rfl⟩
abbrev main_v11 : Ref sig .tc := ⟨.hbm, 27, rfl⟩
abbrev main_c_6 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call4_c : Ref sig .tc := ⟨.hbm, 32, rfl⟩
abbrev main_call4_v0 : Ref sig .tc := ⟨.hbm, 33, rfl⟩
abbrev main_call4_v1 : Ref sig .tc := ⟨.hbm, 34, rfl⟩
abbrev main_call4_c_0 : Ref sig .tc := ⟨.hbm, 35, rfl⟩
abbrev main_call4_v2 : Ref sig .tc := ⟨.hbm, 36, rfl⟩
abbrev main_call4_v3 : Ref sig .tc := ⟨.hbm, 37, rfl⟩
abbrev main_call4_v4 : Ref sig .tc := ⟨.hbm, 38, rfl⟩
abbrev main_call4_v5 : Ref sig .tc := ⟨.hbm, 39, rfl⟩
abbrev main_call4_c_1 : Ref sig .tc := ⟨.hbm, 40, rfl⟩
abbrev main_call4_c_2 : Ref sig .tc := ⟨.hbm, 41, rfl⟩
abbrev main_call4_v6 : Ref sig .tc := ⟨.hbm, 42, rfl⟩
abbrev main_call4_v7 : Ref sig .tc := ⟨.hbm, 43, rfl⟩
abbrev main_call4_v8 : Ref sig .tc := ⟨.hbm, 44, rfl⟩
abbrev main_call4_v9 : Ref sig .tc := ⟨.hbm, 45, rfl⟩
abbrev main_call4_v10 : Ref sig .tc := ⟨.hbm, 46, rfl⟩
abbrev main_call4_v11 : Ref sig .tc := ⟨.hbm, 47, rfl⟩
abbrev main_call4_c_3 : Ref sig .tc := ⟨.hbm, 48, rfl⟩
abbrev main_call4_v12 : Ref sig .tc := ⟨.hbm, 49, rfl⟩
abbrev main_call4_v13 : Ref sig .tc := ⟨.hbm, 50, rfl⟩
abbrev main_call4_v14 : Ref sig .tc := ⟨.hbm, 51, rfl⟩
abbrev main_call4_cst : Ref sig .tc := ⟨.hbm, 52, rfl⟩
abbrev main_call4_v15 : Ref sig .tc := ⟨.hbm, 53, rfl⟩
abbrev main_v15 : Ref sig .tc := ⟨.hbm, 54, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S32x512x4096_2 : S4096.BroadcastsInDim S32x512x4096 (![2] : Fin 1 → Fin S32x512x4096.rank)
  bcast_S_S32x512x4096 : S_.BroadcastsInDim S32x512x4096 (![] : Fin 0 → Fin S32x512x4096.rank)
  gather_S32x512x4096_S4096x1_S32x512x4096_01_2_n_n_2_1_325121_wf : GatherDims.WF S32x512x4096 S4096x1 S32x512x4096 [0, 1] [2] [] [2] [] 1 ![32, 512, 1]

variable [Facts₀]

def gather_S32x512x4096_S4096x1_S32x512x4096_01_2_n_n_2_1_325121 : GatherDims S32x512x4096 S4096x1 S32x512x4096 where
  offsetDims := [0, 1]
  collapsedSliceDims := [2]
  operandBatchingDims := []
  startIndicesBatchingDims := []
  startIndexMap := [2]
  indexVectorDim := 1
  sliceSizes := ![32, 512, 1]
  wf := gather_S32x512x4096_S4096x1_S32x512x4096_01_2_n_n_2_1_325121_wf

class Facts : Prop extends Facts₀ where

variable [Facts]
-- ==== Proof.Jitter.lean ====
/-
  The mathematics of the jitter, one time step at a time, with no program in sight.

  A signal x over 4096 time steps is resampled: step t keeps x t unless its replacement draw r is below 12, and then it
  takes the value of a NEIGHBOUR, the step before or after t as the direction draw d says (d = 0: before), except that
  step 0 always takes step 1 and step 4095 always takes step 4094.  All of this is 32-bit integer arithmetic on the
  words the two programs compute: `nbr` is the neighbour's position, `rep` the replacement bit.

  One program forms the result as a sum of three products, x t, x (t+1) and x (t-1) (positions taken around the end)
  each against a 0/1 selector; the other looks x up at the chosen position, after a guard against positions outside
  0..4095 that never fires (`inRange_pos`).  `jitter_pointwise` says the two agree on the extended reals for ANY values
  of x: exactly one selector is 1, a product with the selector 0 is 0 whatever the other factor (also at an infinity),
  and the neighbour's position is t+1 < 4096 or t-1 >= 0, so the wrap-around of the rotation is never seen.
-/
import Idealize.ShloMosaic.PureOps.Ideal
import Idealize.ShloMosaic.Lib.ValueIdx

noncomputable section

namespace Cert.Jitter

open Idealize.ShloMosaic Idealize.ShloMosaic.ValueIdx

/-- Time step `t` as the 32-bit word an iota holds there. -/
def tw (t : Fin 4096) : BitVec 32 := BitVec.ofNat 32 t.val

/-- The direction word: -1 when the draw is 0, else +1. -/
def dirw (d : BitVec 32) : BitVec 32 := Scalar.select (IntOp.cmpi .eq d 0#32) 4294967295#32 1#32

/-- The neighbour's position: t + direction, but 1 at step 0 and 4094 at step 4095. -/
def nbr (t : Fin 4096) (d : BitVec 32) : BitVec 32 :=
  Scalar.select (IntOp.cmpi .eq (tw t) 4095#32) 4094#32
    (Scalar.select (IntOp.cmpi .eq (tw t) 0#32) 1#32 (IntOp.addi (tw t) (dirw d)))

/-- The replacement bit: the draw is below 12. -/
def rep (r : BitVec 32) : BitVec 1 := IntOp.cmpi .slt r 12#32

/-- A bit as an extended real. -/
def bitVal (b : BitVec 1) : EReal := ((b.toNat : ℝ) : EReal)

/-- The selector of x t: no replacement. -/
def selSelf (r : BitVec 32) : EReal := bitVal (~~~(rep r))
/-- The selector of x (t+1): replacement, and the neighbour is one step ahead. -/
def selNext (t : Fin 4096) (r d : BitVec 32) : EReal :=
  bitVal (IntOp.andi (rep r) (IntOp.cmpi .eq (IntOp.subi (nbr t d) (tw t)) 1#32))
/-- The selector of x (t-1): replacement, and the neighbour is one step behind. -/
def selPrev (t : Fin 4096) (r d : BitVec 32) : EReal :=
  bitVal (IntOp.andi (rep r) (IntOp.cmpi .eq (IntOp.subi (nbr t d) (tw t)) 4294967295#32))

/-- The position looked up: the neighbour's on a replacement, else t; a negative one moved up by 4096. -/
def pos (t : Fin 4096) (r d : BitVec 32) : BitVec 32 :=
  Scalar.select (IntOp.cmpi .slt (Scalar.select (rep r) (nbr t d) (tw t)) 0#32)
    (IntOp.addi (Scalar.select (rep r) (nbr t d) (tw t)) 4096#32) (Scalar.select (rep r) (nbr t d) (tw t))

/-- The guard: the position is within 0..4095. -/
def inRange (w : BitVec 32) : BitVec 1 := IntOp.andi (IntOp.cmpi .sge w 0#32) (IntOp.cmpi .sle w 4095#32)

/-- The position as an index, read signed and clamped to 0..4095. -/
def posIdx (w : BitVec 32) : Fin 4096 := ⟨min w.toInt.toNat 4095, by omega⟩

/-- The step after `q`, around the end. -/
def nextStep (q : Fin 4096) : Fin 4096 := ⟨(q.val + 1) % 4096, Nat.mod_lt _ (by omega)⟩
/-- The step before `q`, around the end. -/
def prevStep (q : Fin 4096) : Fin 4096 := ⟨(q.val + 4095) % 4096, Nat.mod_lt _ (by omega)⟩

theorem bitVal_one : bitVal 1#1 = 1 := by simp [bitVal]
theorem bitVal_zero : bitVal 0#1 = 0 := by simp [bitVal]

theorem cmpi_eq (a b : BitVec 32) : IntOp.cmpi .eq a b = if a = b then 1#1 else 0#1 := by
  unfold IntOp.cmpi
  by_cases h : a = b
  · rw [if_pos h, h]; simp
  · rw [if_neg h, show (a == b) = false from beq_eq_false_iff_ne.mpr h]; rfl

/-- A word of a position below 4096 is that position read signed, and is in range. -/
theorem ofNat_facts (n : Nat) (hn : n < 4096) :
    IntOp.cmpi .slt (BitVec.ofNat 32 n) 0#32 = 0#1 ∧ inRange (BitVec.ofNat 32 n) = 1#1
      ∧ posIdx (BitVec.ofNat 32 n) = ⟨n, hn⟩ := by
  have h1 : (BitVec.ofNat 32 n).toNat = n := by simp [BitVec.toNat_ofNat]; omega
  have h2 : (BitVec.ofNat 32 n).toInt = (n : Int) := by
    rw [BitVec.toInt_eq_toNat_cond, h1]; split <;> omega
  have z0 : (0#32 : BitVec 32).toInt = 0 := by decide
  have z1 : (4095#32 : BitVec 32).toInt = 4095 := by decide
  have a0 : (BitVec.ofNat 32 n).slt 0#32 = false := by
    rw [BitVec.slt, h2, z0]; exact decide_eq_false (by omega)
  have a1 : (0#32 : BitVec 32).sle (BitVec.ofNat 32 n) = true := by
    rw [BitVec.sle, h2, z0]; exact decide_eq_true (by omega)
  have a2 : (BitVec.ofNat 32 n).sle 4095#32 = true := by
    rw [BitVec.sle, h2, z1]; exact decide_eq_true (by omega)
  refine ⟨?_, ?_, ?_⟩
  · unfold IntOp.cmpi; simp only [a0]; rfl
  · unfold inRange IntOp.cmpi IntOp.andi; simp only [a1, a2]; rfl
  · unfold posIdx; refine Fin.ext ?_; simp only [h2]; simp; omega

/-- Word arithmetic on positions below 4096 does not wrap: one step ahead, -/
theorem tw_add_one (t : Fin 4096) : IntOp.addi (tw t) 1#32 = BitVec.ofNat 32 (t.val + 1) := by
  have ht := t.isLt
  unfold tw IntOp.addi
  apply BitVec.eq_of_toNat_eq
  rw [BitVec.toNat_add, BitVec.toNat_ofNat, BitVec.toNat_ofNat, BitVec.toNat_ofNat]
  show (t.val % 4294967296 + 1 % 4294967296) % 4294967296 = (t.val + 1) % 4294967296
  omega

/-- one step behind (adding the word of −1), -/
theorem tw_sub_one (t : Fin 4096) (h : 1 ≤ t.val) : IntOp.addi (tw t) 4294967295#32 = BitVec.ofNat 32 (t.val - 1) := by
  have ht := t.isLt
  unfold tw IntOp.addi
  apply BitVec.eq_of_toNat_eq
  rw [BitVec.toNat_add, BitVec.toNat_ofNat, BitVec.toNat_ofNat, BitVec.toNat_ofNat]
  show (t.val % 4294967296 + 4294967295 % 4294967296) % 4294967296 = (t.val - 1) % 4294967296
  omega

/-- and the two differences neighbour − t. -/
theorem sub_next (t : Fin 4096) (h : t.val + 1 < 4096) : IntOp.subi (BitVec.ofNat 32 (t.val + 1)) (tw t) = 1#32 := by
  unfold tw IntOp.subi
  apply BitVec.eq_of_toNat_eq
  rw [BitVec.toNat_sub, BitVec.toNat_ofNat, BitVec.toNat_ofNat, BitVec.toNat_ofNat]
  show (4294967296 - t.val % 4294967296 + (t.val + 1) % 4294967296) % 4294967296 = 1 % 4294967296
  omega

theorem sub_prev (t : Fin 4096) (h : 1 ≤ t.val) : IntOp.subi (BitVec.ofNat 32 (t.val - 1)) (tw t) = 4294967295#32 := by
  have ht := t.isLt
  unfold tw IntOp.subi
  apply BitVec.eq_of_toNat_eq
  rw [BitVec.toNat_sub, BitVec.toNat_ofNat, BitVec.toNat_ofNat, BitVec.toNat_ofNat]
  show (4294967296 - t.val % 4294967296 + (t.val - 1) % 4294967296) % 4294967296 = 4294967295 % 4294967296
  omega

/-- A time step's word is the word of `n` below 4096 exactly when the step is `n`. -/
theorem tw_eq_iff (t : Fin 4096) (n : Nat) (hn : n < 4096) : tw t = BitVec.ofNat 32 n ↔ t.val = n := by
  have ht := t.isLt
  unfold tw; constructor
  · intro h
    have h' := congrArg BitVec.toNat h
    rw [BitVec.toNat_ofNat, BitVec.toNat_ofNat] at h'
    change t.val % 4294967296 = n % 4294967296 at h'
    omega
  · intro h; rw [h]

/-- The neighbour is the step after t (and there is one) or the step before t (and there is one). -/
theorem nbr_cases (t : Fin 4096) (d : BitVec 32) :
    (nbr t d = BitVec.ofNat 32 (t.val + 1) ∧ t.val + 1 < 4096) ∨ (nbr t d = BitVec.ofNat 32 (t.val - 1) ∧ 1 ≤ t.val) := by
  have ht := t.isLt
  have e1 : tw t = 4095#32 ↔ t.val = 4095 := tw_eq_iff t 4095 (by omega)
  have e0 : tw t = 0#32 ↔ t.val = 0 := tw_eq_iff t 0 (by omega)
  unfold nbr
  rw [cmpi_eq, cmpi_eq]
  by_cases h1 : t.val = 4095
  · rw [if_pos (e1.mpr h1), select_one]; right; rw [h1]; exact ⟨rfl, by omega⟩
  rw [if_neg (fun h => h1 (e1.mp h)), select_zero]
  by_cases h0 : t.val = 0
  · rw [if_pos (e0.mpr h0), select_one]; left; rw [h0]; exact ⟨rfl, by omega⟩
  rw [if_neg (fun h => h0 (e0.mp h)), select_zero]
  unfold dirw
  rw [cmpi_eq]
  by_cases hd : d = 0#32
  · rw [if_pos hd, select_one]; right
    exact ⟨tw_sub_one t (by omega), by omega⟩
  · rw [if_neg hd, select_zero]; left
    exact ⟨tw_add_one t, by omega⟩

/-- The difference neighbour − t, as the two selectors test it. -/
theorem diff_next (t : Fin 4096) (h : t.val + 1 < 4096) :
    IntOp.cmpi .eq (IntOp.subi (BitVec.ofNat 32 (t.val + 1)) (tw t)) 1#32 = 1#1
      ∧ IntOp.cmpi .eq (IntOp.subi (BitVec.ofNat 32 (t.val + 1)) (tw t)) 4294967295#32 = 0#1 := by
  rw [sub_next t h, cmpi_eq, cmpi_eq]; exact ⟨by decide, by decide⟩

theorem diff_prev (t : Fin 4096) (h : 1 ≤ t.val) :
    IntOp.cmpi .eq (IntOp.subi (BitVec.ofNat 32 (t.val - 1)) (tw t)) 1#32 = 0#1
      ∧ IntOp.cmpi .eq (IntOp.subi (BitVec.ofNat 32 (t.val - 1)) (tw t)) 4294967295#32 = 1#1 := by
  rw [sub_prev t h, cmpi_eq, cmpi_eq]; exact ⟨by decide, by decide⟩

/-- The position looked up is always within 0..4095: the guard never fires. -/
theorem inRange_pos (t : Fin 4096) (r d : BitVec 32) : inRange (pos t r d) = 1#1 := by
  have ht := t.isLt
  unfold pos
  rcases BitVec.eq_zero_or_eq_one (rep r) with h0 | h1
  · rw [h0, select_zero]
    obtain ⟨a, b, -⟩ := ofNat_facts t.val ht
    rw [show tw t = BitVec.ofNat 32 t.val from rfl, a, select_zero, b]
  · rw [h1, select_one]
    rcases nbr_cases t d with ⟨hn, hlt⟩ | ⟨hn, hge⟩
    · obtain ⟨a, b, -⟩ := ofNat_facts (t.val + 1) hlt
      rw [hn, a, select_zero, b]
    · obtain ⟨a, b, -⟩ := ofNat_facts (t.val - 1) (by omega)
      rw [hn, a, select_zero, b]

/-- THE JITTER AT ONE TIME STEP: the three-product form is the lookup, for any extended reals `x`. -/
theorem jitter_pointwise (x : Fin 4096 → EReal) (t : Fin 4096) (r d : BitVec 32) :
    x t * selSelf r + x (nextStep t) * selNext t r d + x (prevStep t) * selPrev t r d = x (posIdx (pos t r d)) := by
  have ht := t.isLt
  unfold selSelf selNext selPrev pos
  rcases BitVec.eq_zero_or_eq_one (rep r) with h0 | h1
  · -- no replacement: the position is t
    rw [h0, select_zero]
    obtain ⟨a, -, c⟩ := ofNat_facts t.val ht
    rw [show tw t = BitVec.ofNat 32 t.val from rfl, a, select_zero, c]
    have e1 : ~~~(0#1) = 1#1 := by decide
    have e2 : ∀ y : BitVec 1, IntOp.andi 0#1 y = 0#1 := fun y => by
      unfold IntOp.andi; rcases BitVec.eq_zero_or_eq_one y with h | h <;> subst h <;> decide
    rw [e1, e2, e2, bitVal_one, bitVal_zero]
    simp
  · -- replacement: the position is the neighbour's
    rw [h1, select_one]
    have e1 : ~~~(1#1) = 0#1 := by decide
    have e2 : ∀ y : BitVec 1, IntOp.andi 1#1 y = y := fun y => by
      unfold IntOp.andi; rcases BitVec.eq_zero_or_eq_one y with h | h <;> subst h <;> decide
    rw [e1, e2, e2, bitVal_zero]
    rcases nbr_cases t d with ⟨hn, hlt⟩ | ⟨hn, hge⟩
    · obtain ⟨a, -, c⟩ := ofNat_facts (t.val + 1) hlt
      obtain ⟨p, q⟩ := diff_next t hlt
      rw [hn, a, select_zero, c, p, q, bitVal_one, bitVal_zero]
      have : nextStep t = ⟨t.val + 1, hlt⟩ := Fin.ext (by show (t.val + 1) % 4096 = t.val + 1; omega)
      rw [this]; simp
    · have hlt : t.val - 1 < 4096 := by omega
      obtain ⟨a, -, c⟩ := ofNat_facts (t.val - 1) hlt
      obtain ⟨p, q⟩ := diff_prev t hge
      rw [hn, a, select_zero, c, p, q, bitVal_one, bitVal_zero]
      have : prevStep t = ⟨t.val - 1, hlt⟩ := Fin.ext (by show (t.val + 4095) % 4096 = t.val - 1; omega)
      rw [this]; simp

end Cert.Jitter

end
-- ==== Proof.KernelBlocks.lean ====
/-
  The kernel's result array, from the blocks its grid points write.

  The call runs over a 32 × 4 grid; point (b, g) stages the block of the signal with batch b, channels 128 g … 128 g + 127
  and ALL 4096 time steps, and the three selector rows whole.  The body multiplies the block by the first row, the block
  rotated one step back along the time axis (entry q takes entry q+1, around the end) by the second, the block rotated
  one step forward (entry q takes entry q−1, around the end) by the third, and adds the three.  Because a block holds the
  whole time axis, the rotation of a block is the rotation of the signal's rows, so what point (b, g) writes back is its
  block of ONE array-wide function `outArr`; the 128 blocks tile the array, hence the array ends holding `outArr`.
-/
import proofs.«179251_j2370821947465_2_alg».proof.Proof.Gen.KernelIdeal.Value
import proofs.«179251_j2370821947465_2_alg».proof.Proof.Jitter
import Idealize.ShloMosaic.Lib.Pipeline.Value
import Idealize.ShloMosaic.Lib.KernelVsHost
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Jitter

variable (m : (ℓ : Loc nD τ sig) → Buf (Elt Ideal) ℓ)

theorem hz : (![0, 0, 0] : Fin 3 → Nat) = fun _ => 0 := funext fun a => by fin_cases a <;> rfl

/-! ## The body at one element -/

/-- Entry (0, p, q) of what the body stores: the block at q against the first row, at the step after q against the
    second, at the step before q against the third. -/
theorem body_apply (x0 : Vec Ideal S1x128x4096 .f32) (x1 x2 x3 : Vec Ideal S1x1x4096 .f32) (p : Fin 128) (q : Fin 4096) :
    k0_pay1 x0 x1 x2 x3 (ix3 (0 : Fin 1) p q)
      = x0 (ix3 (0 : Fin 1) p q) * x1 (ix3 (0 : Fin 1) (0 : Fin 1) q)
        + x0 (ix3 (0 : Fin 1) p (nextStep q)) * x2 (ix3 (0 : Fin 1) (0 : Fin 1) q)
        + x0 (ix3 (0 : Fin 1) p (prevStep q)) * x3 (ix3 (0 : Fin 1) (0 : Fin 1) q) := by
  have hb : ∀ v : Vec Ideal S1x1x4096 .f32,
      broadcastTo S1x128x4096 (shapeCast S1x1x4096 (shapeCast S1x1x4096 v shapeCasts_S1x1x4096_S1x1x4096)
        shapeCasts_S1x1x4096_S1x1x4096) broadcasts_S1x1x4096_S1x128x4096 (ix3 (0 : Fin 1) p q)
        = v (ix3 (0 : Fin 1) (0 : Fin 1) q) := fun v => by
    rw [shapeCast_self, shapeCast_self]
    exact broadcastTo_apply _ _ _ _ (fun a => by match a with | ⟨0, _⟩ => rfl | ⟨1, _⟩ => rfl | ⟨2, _⟩ => rfl)
  have hn : dynamicRotate 2 4095#32 none x0 rotates_S1x128x4096_d2 (ix3 (0 : Fin 1) p q) = x0 (ix3 (0 : Fin 1) p (nextStep q)) :=
    dynamicRotate_apply 2 4095#32 x0 _ _ _ (fun b => by
      match b with
      | ⟨0, _⟩ => rfl
      | ⟨1, _⟩ => rfl
      | ⟨2, _⟩ => show (q.val + 1) % 4096 = (q.val + 4096 - 4095 % 4096) % 4096; omega)
  have hp : dynamicRotate 2 1#32 none x0 rotates_S1x128x4096_d2 (ix3 (0 : Fin 1) p q) = x0 (ix3 (0 : Fin 1) p (prevStep q)) :=
    dynamicRotate_apply 2 1#32 x0 _ _ _ (fun b => by
      match b with
      | ⟨0, _⟩ => rfl
      | ⟨1, _⟩ => rfl
      | ⟨2, _⟩ => show (q.val + 4095) % 4096 = (q.val + 4096 - 1 % 4096) % 4096; omega)
  unfold k0_pay1
  simp only [addf_apply, mulf_apply, hb, hn, hp]

/-! ## The windows' index maps, decided over the grid -/

/-- The signal's window moves with the output's on batch and channels and holds the whole time axis; the three selector
    windows never move; the output's block indices stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ win0_4.index t (0 : Fin 3) < 32 ∧ win0_4.index t (1 : Fin 3) < 4 :=
  (by decide +kernel : ∀ t : Fin grid0.N, _)

/-- Every (batch, channel group) is some point's block. -/
theorem idx_onto : ∀ (q0 : Fin 32) (q1 : Fin 4), ∃ t : Fin cfg0.N, win0_4.index t = ![q0.val, q1.val, 0] :=
  (by decide +kernel : ∀ (q0 : Fin 32) (q1 : Fin 4), ∃ t : Fin grid0.N, win0_4.index t = ![q0.val, q1.val, 0])

/-! ## The input blocks read off their arrays -/

/-- Element y of the signal's block at point t is the signal at block index × block size + y. -/
theorem iblk0_apply (c : Dev nD) (t : Fin cfg0.N) (y : S1x128x4096.Idx) (k : S32x512x4096.Idx)
    (h0 : (k 0).val = win0_0.index t (0 : Fin 3) * 1 + (y 0).val)
    (h1 : (k 1).val = win0_0.index t (1 : Fin 3) * 128 + (y 1).val)
    (h2 : (k 2).val = win0_0.index t (2 : Fin 3) * 4096 + (y 2).val) :
    (iblk m c 0 t : Vec Ideal S1x128x4096 .f32) y = V m c main_arg0 k := by
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * (y 0).val = (k 0).val; omega
  | ⟨1, _⟩ => show win0_0.index t (1 : Fin 3) * 128 + 1 * (y 1).val = (k 1).val; omega
  | ⟨2, _⟩ => show win0_0.index t (2 : Fin 3) * 4096 + 1 * (y 2).val = (k 2).val; omega

/-- A selector window's block is its whole row. -/
theorem iblk1_apply (c : Dev nD) (t : Fin cfg0.N) (y : S1x1x4096.Idx) :
    (iblk m c 1 t : Vec Ideal S1x1x4096 .f32) y = V m c main_v27 y := by
  obtain ⟨-, -, -, -, ⟨e0, e1, e2⟩, -⟩ := idx_facts t
  unfold iblk
  rw [View.read_apply]
  show V m c main_v27 _ = V m c main_v27 _
  refine congrArg (V m c main_v27) (funext fun a => Fin.ext ?_)
  match a with
  | ⟨0, _⟩ => show win0_1.index t (0 : Fin 3) * 1 + 1 * (y 0).val = (y 0).val; omega
  | ⟨1, _⟩ => show win0_1.index t (1 : Fin 3) * 1 + 1 * (y 1).val = (y 1).val; omega
  | ⟨2, _⟩ => show win0_1.index t (2 : Fin 3) * 4096 + 1 * (y 2).val = (y 2).val; omega

theorem iblk2_apply (c : Dev nD) (t : Fin cfg0.N) (y : S1x1x4096.Idx) :
    (iblk m c 2 t : Vec Ideal S1x1x4096 .f32) y = V m c main_v19 y := by
  obtain ⟨-, -, -, -, -, ⟨e0, e1, e2⟩, -⟩ := idx_facts t
  unfold iblk
  rw [View.read_apply]
  show V m c main_v19 _ = V m c main_v19 _
  refine congrArg (V m c main_v19) (funext fun a => Fin.ext ?_)
  match a with
  | ⟨0, _⟩ => show win0_2.index t (0 : Fin 3) * 1 + 1 * (y 0).val = (y 0).val; omega
  | ⟨1, _⟩ => show win0_2.index t (1 : Fin 3) * 1 + 1 * (y 1).val = (y 1).val; omega
  | ⟨2, _⟩ => show win0_2.index t (2 : Fin 3) * 4096 + 1 * (y 2).val = (y 2).val; omega

theorem iblk3_apply (c : Dev nD) (t : Fin cfg0.N) (y : S1x1x4096.Idx) :
    (iblk m c 3 t : Vec Ideal S1x1x4096 .f32) y = V m c main_v24 y := by
  obtain ⟨-, -, -, -, -, -, ⟨e0, e1, e2⟩, -⟩ := idx_facts t
  unfold iblk
  rw [View.read_apply]
  show V m c main_v24 _ = V m c main_v24 _
  refine congrArg (V m c main_v24) (funext fun a => Fin.ext ?_)
  match a with
  | ⟨0, _⟩ => show win0_3.index t (0 : Fin 3) * 1 + 1 * (y 0).val = (y 0).val; omega
  | ⟨1, _⟩ => show win0_3.index t (1 : Fin 3) * 1 + 1 * (y 1).val = (y 1).val; omega
  | ⟨2, _⟩ => show win0_3.index t (2 : Fin 3) * 4096 + 1 * (y 2).val = (y 2).val; omega

/-! ## One array-wide function -/

/-- Entry (b, cc, q) of the result, from the signal `X` and the three selector rows. -/
def outAt (X : S32x512x4096.Idx → EReal) (s0 s1 s2 : S1x1x4096.Idx → EReal) (b : Fin 32) (cc : Fin 512) (q : Fin 4096) : EReal :=
  X (ix3 b cc q) * s0 (ix3 (0 : Fin 1) (0 : Fin 1) q) + X (ix3 b cc (nextStep q)) * s1 (ix3 (0 : Fin 1) (0 : Fin 1) q)
    + X (ix3 b cc (prevStep q)) * s2 (ix3 (0 : Fin 1) (0 : Fin 1) q)

/-- The result array. -/
def outArr (X : S32x512x4096.Idx → EReal) (s0 s1 s2 : S1x1x4096.Idx → EReal) : S32x512x4096.Idx → EReal :=
  fun i => outAt X s0 s1 s2 (i 0) (i 1) (i 2)

/-- Element y of what point t stores is `outAt` at the array position of y in t's block. -/
theorem point_eq (c : Dev nD) (t : Fin cfg0.N) (y : S1x128x4096.Idx) (b : Fin 32) (cc : Fin 512)
    (hb : b.val = win0_4.index t (0 : Fin 3)) (hcc : cc.val = win0_4.index t (1 : Fin 3) * 128 + (y 1).val) :
    k0_pay1 (iblk m c 0 t) (iblk m c 1 t) (iblk m c 2 t) (iblk m c 3 t) y
      = outAt (V m c main_arg0) (V m c main_v27) (V m c main_v19) (V m c main_v24) b cc (y 2) := by
  obtain ⟨f0, f1, f2, -⟩ := idx_facts t
  obtain ⟨a, p, q, rfl⟩ : ∃ (a : Fin 1) (p : Fin 128) (q : Fin 4096), y = ix3 a p q := ⟨y 0, y 1, y 2, eq_ix3 y⟩
  obtain rfl : a = 0 := Subsingleton.elim _ _
  have hcc' : cc.val = win0_4.index t (1 : Fin 3) * 128 + p.val := hcc
  refine (body_apply _ _ _ _ p q).trans ?_
  unfold outAt
  rw [iblk0_apply m c t (ix3 (0 : Fin 1) p q) (ix3 b cc q) (by show b.val = _ + (0 : Nat); omega) (by show cc.val = _ + p.val; omega) (by show q.val = _ + q.val; omega),
    iblk0_apply m c t (ix3 (0 : Fin 1) p (nextStep q)) (ix3 b cc (nextStep q)) (by show b.val = _ + (0 : Nat); omega) (by show cc.val = _ + p.val; omega) (by show (nextStep q).val = _ + (nextStep q).val; omega),
    iblk0_apply m c t (ix3 (0 : Fin 1) p (prevStep q)) (ix3 b cc (prevStep q)) (by show b.val = _ + (0 : Nat); omega) (by show cc.val = _ + p.val; omega) (by show (prevStep q).val = _ + (prevStep q).val; omega),
    iblk1_apply, iblk2_apply, iblk3_apply]

/-- WHAT POINT t WRITES BACK is block t of `outArr` of the arrays as the region finds them. -/
theorem flushed_eq (c : Dev nD) (t : Fin cfg0.N) :
    (dats m 0 c).flushed 4 t = ((cfg0.win 4).blk t).view.read (Elt Ideal)
      (outArr (V m c main_arg0) (V m c main_v27) (V m c main_v19) (V m c main_v24)) := by
  rw [Cert.KernelIdeal.Value.flushed4]
  unfold out0_4
  rw [View.canon_unit_zero hz]
  simp only [View.ld_unit_zero (S := S1x128x4096) hz, View.ld_unit_zero (S := S1x1x4096) hz]
  obtain ⟨-, -, -, f2, -, -, -, l0, l1⟩ := idx_facts t
  funext j
  have hj0 : (j 0).val < 1 := (j 0).isLt
  have hj1 : (j 1).val < 128 := (j 1).isLt
  have hj2 : (j 2).val < 4096 := (j 2).isLt
  rw [View.read_apply]
  have he : ((cfg0.win 4).blk t).view.emb j
      = ix3 (⟨win0_4.index t (0 : Fin 3), l0⟩ : Fin 32) (⟨win0_4.index t (1 : Fin 3) * 128 + (j 1).val, by omega⟩ : Fin 512)
          (⟨(j 2).val, hj2⟩ : Fin 4096) := by
    funext a; apply Fin.ext
    match a with
    | ⟨0, _⟩ => show win0_4.index t (0 : Fin 3) * 1 + 1 * (j 0).val = win0_4.index t (0 : Fin 3); omega
    | ⟨1, _⟩ => show win0_4.index t (1 : Fin 3) * 128 + 1 * (j 1).val = win0_4.index t (1 : Fin 3) * 128 + (j 1).val; omega
    | ⟨2, _⟩ => show win0_4.index t (2 : Fin 3) * 4096 + 1 * (j 2).val = (j 2).val; omega
  rw [he]
  exact point_eq m c t j _ _ rfl rfl

/-! ## The blocks tile the array -/

/-- An index of the array is in point t's block iff each coordinate is in the block's range on its axis. -/
theorem mem_blk (t : Fin cfg0.N) (i : S32x512x4096.Idx) :
    i ∈ ((cfg0.win 4).blk t).view.set ↔ ∀ a : Fin 3, win0_4.index t a * S1x128x4096.size a ≤ (i a).val
      ∧ (i a).val < win0_4.index t a * S1x128x4096.size a + S1x128x4096.size a := by
  show i ∈ ((View.whole main_v28).slice (win0_4.rect t)).set ↔ _
  rw [View.set_slice_whole, Rect.mem_set_unit]
  exact Iff.rfl

/-- Every index is in the block of the point with its batch and its channel group. -/
theorem cover (i : S32x512x4096.Idx) : ∃ t : Fin cfg0.N, (cfg0.win 4).flush t = true ∧ i ∈ ((cfg0.win 4).blk t).view.set := by
  have hi0 : (i 0).val < 32 := (i 0).isLt
  have hi1 : (i 1).val < 512 := (i 1).isLt
  have hi2 : (i 2).val < 4096 := (i 2).isLt
  obtain ⟨t, ht⟩ := idx_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 4096 ≤ (i 2).val ∧ (i 2).val < win0_4.index t (2 : Fin 3) * 4096 + 4096; omega

/-- THE ARRAY after the run is `outArr` of the arrays as the region finds them. -/
theorem final (c : Dev nD) : (dats m 0 c).arrAt 4 cfg0.N
    = outArr (V m c main_arg0) (V m c main_v27) (V m c main_v19) (V m c main_v24) :=
  (dats m 0 c).arrAt_eq_of_cover 4 _ (fun t _ => flushed_eq m c t) cover

end Cert.KernelIdeal.Hand

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.KernelSelectors.lean ====
/-
  The three selectors as the kernel's program computes them before its one pallas_call.

  Ahead of the call the program computes, from the two integer draws, three vectors of 4096 zeros and ones laid out as
  [1, 1, 4096]: "no replacement" (the factor of x t), "replacement and the neighbour is one step ahead" (the factor of
  x (t+1)) and "replacement and the neighbour is one step behind" (the factor of x (t-1)).  Here each is read back from
  the program's operations as a term of the draws, and then at a time step q as the selector the specification names.
-/
import proofs.«179251_j2370821947465_2_alg».proof.Proof.Gen.KernelIdeal.Value
import proofs.«179251_j2370821947465_2_alg».proof.Proof.Jitter
import proofs.«179251_j2370821947465_2_alg».proof.Proof.LibTRef
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A scalar integer constant broadcast along the time axis. -/
abbrev splat (w : BitVec 32) : IVec S4096 32 := broadcastInDim S4096 ![] bcast_S_S4096 (constantI S_ 32 w)

/-- The replacement bits of the draws `a1`. -/
abbrev repV (a1 : IVec S4096 32) : IVec S4096 1 := cmpi .slt a1 (splat 12#32)

/-- The neighbours' positions from the direction draws `a2`. -/
abbrev nbrV (a2 : IVec S4096 32) : IVec S4096 32 :=
  select (cmpi .eq (iotaInDim S4096 32 0) (splat 4095#32)) (splat 4094#32)
    (select (cmpi .eq (iotaInDim S4096 32 0) (splat 0#32)) (splat 1#32)
      (addi (iotaInDim S4096 32 0) (select (cmpi .eq a2 (splat 0#32)) (splat 4294967295#32) (splat 1#32))))

/-- The three selector vectors, in the layout the call stages. -/
abbrev selfV (a1 : IVec S4096 32) : S1x1x4096.Idx → EReal :=
  shapeCast S1x1x4096 (uitofp (F := Ideal) .f32 (noti (repV a1))) shapeCasts_S4096_S1x1x4096
abbrev nextV (a1 a2 : IVec S4096 32) : S1x1x4096.Idx → EReal :=
  shapeCast S1x1x4096 (uitofp (F := Ideal) .f32 (andi (repV a1) (cmpi .eq (subi (nbrV a2) (iotaInDim S4096 32 0)) (splat 1#32)))) shapeCasts_S4096_S1x1x4096
abbrev prevV (a1 a2 : IVec S4096 32) : S1x1x4096.Idx → EReal :=
  shapeCast S1x1x4096 (uitofp (F := Ideal) .f32 (andi (repV a1) (cmpi .eq (subi (nbrV a2) (iotaInDim S4096 32 0)) (splat 4294967295#32)))) shapeCasts_S4096_S1x1x4096

set_option maxHeartbeats 1000000 in
/-- What the region finds in the "no replacement" buffer. -/
theorem V_self (c : Dev nD) : (V m c main_v27 : S1x1x4096.Idx → EReal) = selfV (m ((c : Thread nD τ).loc main_arg1)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 1000000 in
/-- What the region finds in the "one step ahead" buffer. -/
theorem V_next (c : Dev nD) : (V m c main_v19 : S1x1x4096.Idx → EReal)
    = nextV (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [Cert.LibTRef.ofBuf_toBuf]
  rfl

set_option maxHeartbeats 1000000 in
/-- What the region finds in the "one step behind" buffer. -/
theorem V_prev (c : Dev nD) : (V m c main_v24 : S1x1x4096.Idx → EReal)
    = prevV (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [Cert.LibTRef.ofBuf_toBuf]
  rfl

/-- A vector of 4096 entries laid out as [1, 1, 4096] reads entry q at (0, 0, q). -/
theorem row_apply {α : Type} (v : S4096.Idx → α) (q : Fin 4096) :
    shapeCast S1x1x4096 v shapeCasts_S4096_S1x1x4096 (ix3 (0 : Fin 1) (0 : Fin 1) q) = v (ix1 q) := by
  refine shapeCast_apply _ _ _ _ ?_
  rw [Shape.rowMajor_val_one, Shape.rowMajor_val_three]
  show q.val = ((0 : Nat) * 1 + 0) * 4096 + q.val
  omega

/-- The selectors at time step q are the specification's, of the draws at q. -/
theorem selfV_apply (a1 : IVec S4096 32) (q : Fin 4096) :
    selfV a1 (ix3 (0 : Fin 1) (0 : Fin 1) q) = Cert.Jitter.selSelf (a1 (ix1 q)) :=
  (row_apply _ q).trans rfl
theorem nextV_apply (a1 a2 : IVec S4096 32) (q : Fin 4096) :
    nextV a1 a2 (ix3 (0 : Fin 1) (0 : Fin 1) q) = Cert.Jitter.selNext q (a1 (ix1 q)) (a2 (ix1 q)) :=
  (row_apply _ q).trans rfl
theorem prevV_apply (a1 a2 : IVec S4096 32) (q : Fin 4096) :
    prevV a1 a2 (ix3 (0 : Fin 1) (0 : Fin 1) q) = Cert.Jitter.selPrev q (a1 (ix1 q)) (a2 (ix1 q)) :=
  (row_apply _ q).trans rfl

end Cert.KernelIdeal.Hand

end
-- ==== Proof.RefRun.lean ====
/-
  The reference program's run, read back.

  The reference is a straight line of 52 host operations once the functions it calls are written out at their calls:
  the neighbour's position and the replacement bit step by step, the choice between the neighbour's position and t,
  and then the lookup along the time axis — a negative position moved up by 4096, the test that the position lies in
  0..4095, the gather itself, and a select that would put a fallback value where the test fails.  Every weakly fair
  execution runs the operations in order and ends with each buffer at the fold of the operations over the launch
  contents; `out_eq` reads the fold at the result as one term of the three arguments.
-/
import proofs.«179251_j2370821947465_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each called function's operations at its call over that call's buffers. -/
abbrev ops : List (HloOp τ sig (Elt F)) :=
  [ nullary main_v0 (iotaInDim S4096 32 0),
    nullary main_c (constantI S_ 32 0#32),
    unary main_c main_v1 (broadcastInDim S4096 ![] bcast_S_S4096 : (⟨S_, .i32⟩ : BufTy).Contents (Elt F) → (⟨S4096, .i32⟩ : BufTy).Contents (Elt F)),
    binary main_arg2 main_v1 main_v2 (cmpi .eq : (⟨S4096, .i32⟩ : BufTy).Contents (Elt F) → (⟨S4096, .i32⟩ : BufTy).Contents (Elt F) → (⟨S4096, .i1⟩ : BufTy).Contents (Elt F)),
    nullary main_c_0 (constantI S_ 32 4294967295#32),
    nullary main_c_1 (constantI S_ 32 1#32),
    TRef.unary (.of main_c_0 : StableHlo.TRef sig ⟨S_, .i32⟩) main_call0.v0 (broadcastInDim S4096 ![] bcast_S_S4096),
    TRef.unary (.of main_c_1 : StableHlo.TRef sig ⟨S_, .i32⟩) main_call0.v1 (broadcastInDim S4096 ![] bcast_S_S4096),
    TRef.ternary (.of main_v2 : StableHlo.TRef sig ⟨S4096, .i1⟩) main_call0.v0 main_call0.v1 main_call0.v2 select,
    unary main_v3 main_v4 (id : (⟨S4096, .i32⟩ : BufTy).Contents (Elt F) → (⟨S4096, .i32⟩ : BufTy).Contents (Elt F)),
    binary main_v0 main_v4 main_v5 (addi : (⟨S4096, .i32⟩ : BufTy).Contents (Elt F) → (⟨S4096, .i32⟩ : BufTy).Contents (Elt F) → (⟨S4096, .i32⟩ : BufTy).Contents (Elt F)),
    nullary main_c_2 (constantI S_ 32 0#32),
    unary main_c_2 main_v6 (broadcastInDim S4096 ![] bcast_S_S4096 : (⟨S_, .i32⟩ : BufTy).Contents (Elt F) → (⟨S4096, .i32⟩ : BufTy).Contents (Elt F)),
    binary main_v0 main_v6 main_v7 (cmpi .eq : (⟨S4096, .i32⟩ : BufTy).Contents (Elt F) → (⟨S4096, .i32⟩ : BufTy).Contents (Elt F) → (⟨S4096, .i1⟩ : BufTy).Contents (Elt F)),
    nullary main_c_3 (constantI S_ 32 1#32),
    TRef.unary (.of main_c_3 : StableHlo.TRef sig ⟨S_, .i32⟩) main_call1.v0 id,
    TRef.unary main_call1.v0 main_call1.v1 (broadcastInDim S4096 ![] bcast_S_S4096),
    TRef.ternary (.of main_v7 : StableHlo.TRef sig ⟨S4096, .i1⟩) main_call1.v1 (.of main_v5 : StableHlo.TRef sig ⟨S4096, .i32⟩) main_call1.v2 select,
    nullary main_c_4 (constantI S_ 32 4095#32),
    unary main_c_4 main_v9 (broadcastInDim S4096 ![] bcast_S_S4096 : (⟨S_, .i32⟩ : BufTy).Contents (Elt F) → (⟨S4096, .i32⟩ : BufTy).Contents (Elt F)),
    binary main_v0 main_v9 main_v10 (cmpi .eq : (⟨S4096, .i32⟩ : BufTy).Contents (Elt F) → (⟨S4096, .i32⟩ : BufTy).Contents (Elt F) → (⟨S4096, .i1⟩ : BufTy).Contents (Elt F)),
    nullary main_c_5 (constantI S_ 32 4094#32),
    TRef.unary (.of main_c_5 : StableHlo.TRef sig ⟨S_, .i32⟩) main_call2.v0 id,
    TRef.unary main_call2.v0 main_call2.v1 (broadcastInDim S4096 ![] bcast_S_S4096),
    TRef.ternary (.of main_v10 : StableHlo.TRef sig ⟨S4096, .i1⟩) main_call2.v1 (.of main_v8 : StableHlo.TRef sig ⟨S4096, .i32⟩) main_call2.v2 select,
    nullary main_c_6 (constantI S_ 32 12#32),
    unary main_c_6 main_v12 (broadcastInDim S4096 ![] bcast_S_S4096 : (⟨S_, .i32⟩ : BufTy).Contents (Elt F) → (⟨S4096, .i32⟩ : BufTy).Contents (Elt F)),
    binary main_arg1 main_v12 main_v13 (cmpi .slt : (⟨S4096, .i32⟩ : BufTy).Contents (Elt F) → (⟨S4096, .i32⟩ : BufTy).Contents (Elt F) → (⟨S4096, .i1⟩ : BufTy).Contents (Elt F)),
    TRef.ternary (.of main_v13 : StableHlo.TRef sig ⟨S4096, .i1⟩) (.of main_v11 : StableHlo.TRef sig ⟨S4096, .i32⟩) (.of main_v0 : StableHlo.TRef sig ⟨S4096, .i32⟩) main_call3.v0 select,
    TRef.nullary main_call4.c (constantI S_ 32 0#32),
    TRef.unary main_call4.c main_call4.v0 (broadcastInDim S4096 ![] bcast_S_S4096),
    TRef.binary (.of main_v14 : StableHlo.TRef sig ⟨S4096, .i32⟩) main_call4.v0 main_call4.v1 (cmpi .slt),
    TRef.nullary main_call4.c_0 (constantI S_ 32 4096#32),
    TRef.unary main_call4.c_0 main_call4.v2 (broadcastInDim S4096 ![] bcast_S_S4096),
    TRef.binary (.of main_v14 : StableHlo.TRef sig ⟨S4096, .i32⟩) main_call4.v2 main_call4.v3 addi,
    TRef.ternary main_call4.v1 main_call4.v3 (.of main_v14 : StableHlo.TRef sig ⟨S4096, .i32⟩) main_call4.call0.v0 select,
    TRef.unary main_call4.call0.v0 main_call4.v5 (broadcastInDim S4096x1 ![0] bcast_S4096_S4096x1_0),
    TRef.nullary main_call4.c_1 (constantI S1 32 4095#32),
    TRef.nullary main_call4.c_2 (constantI S_ 32 0#32),
    TRef.unary main_call4.c_2 main_call4.v6 (broadcastInDim S4096x1 ![] bcast_S_S4096x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S4096x1 ![0, 1] bcast_S1x1_S4096x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S4096x1_S4096_d1 h_S_),
    TRef.binary (.of main_arg0 : StableHlo.TRef sig ⟨S32x512x4096, .f32⟩) main_call4.v5 main_call4.v13 (fun x i => Host.gather gather_S32x512x4096_S4096x1_S32x512x4096_01_2_n_n_2_1_325121 x i),
    TRef.unary main_call4.v12 main_call4.v14 (broadcastInDim S32x512x4096 ![2] bcast_S4096_S32x512x4096_2),
    TRef.nullary main_call4.cst (constant S_ .f32 0x7FC00000#32),
    TRef.unary main_call4.cst main_call4.v15 (broadcastInDim S32x512x4096 ![] bcast_S_S32x512x4096),
    TRef.ternary main_call4.v14 main_call4.v13 main_call4.v15 main_call4.v16 select ]

set_option maxRecDepth 4096 in
/-- @main is that straight line: the called functions unfolded at their calls, the sequencing reassociated. -/
theorem main_eq (c : Dev nD) : main (F := F) c = seq ops := by
  simp only [main, fn_where.body, fn_where_0.body, fn_where_1.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  The reference's result, read at one entry.

  Composed, the reference's operations are: the position to look up at each time step (the neighbour's on a replacement,
  else the step itself; a negative one moved up by 4096), as a column of start indices; the test that each position lies
  in 0..4095; a gather of the signal along its time axis at those positions, every start index read signed and clamped
  into 0..4095; and a select that keeps the gathered entry where the test holds and puts a fallback word elsewhere.
  The position is always in range, so the test holds at every step and entry (b, c, q) of the result is the signal at
  (b, c, position of q).
-/
import proofs.«179251_j2370821947465_2_alg».proof.Proof.RefRun
import proofs.«179251_j2370821947465_2_alg».proof.Proof.Jitter
import proofs.«179251_j2370821947465_2_alg».proof.Proof.LibTRef
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx

/-- A scalar integer constant broadcast along the time axis. -/
abbrev splat (w : BitVec 32) : IVec S4096 32 := broadcastInDim S4096 ![] bcast_S_S4096 (constantI S_ 32 w)

/-- The replacement bits of the draws `a1`. -/
abbrev repV (a1 : IVec S4096 32) : IVec S4096 1 := cmpi .slt a1 (splat 12#32)

/-- The neighbours' positions from the direction draws `a2`. -/
abbrev nbrV (a2 : IVec S4096 32) : IVec S4096 32 :=
  select (cmpi .eq (iotaInDim S4096 32 0) (splat 4095#32)) (splat 4094#32)
    (select (cmpi .eq (iotaInDim S4096 32 0) (splat 0#32)) (splat 1#32)
      (addi (iotaInDim S4096 32 0) (select (cmpi .eq a2 (splat 0#32)) (splat 4294967295#32) (splat 1#32))))

/-- The positions looked up. -/
abbrev posV (a1 a2 : IVec S4096 32) : IVec S4096 32 :=
  select (cmpi .slt (select (repV a1) (nbrV a2) (iotaInDim S4096 32 0)) (splat 0#32))
    (addi (select (repV a1) (nbrV a2) (iotaInDim S4096 32 0)) (splat 4096#32))
    (select (repV a1) (nbrV a2) (iotaInDim S4096 32 0))

/-- The positions as a column of start indices. -/
abbrev posCol (a1 a2 : IVec S4096 32) : IVec S4096x1 32 := broadcastInDim S4096x1 ![0] bcast_S4096_S4096x1_0 (posV a1 a2)

/-- The in-range test on the column. -/
abbrev inCol (a1 a2 : IVec S4096 32) : IVec S4096x1 1 :=
  andi (cmpi .sge (posCol a1 a2) (broadcastInDim S4096x1 ![] bcast_S_S4096x1 (constantI S_ 32 0#32)))
    (cmpi .sle (posCol a1 a2) (broadcastInDim S4096x1 ![0, 1] bcast_S1x1_S4096x1_0_1
      (broadcastInDim S1x1 ![1] bcast_S1_S1x1_1 (constantI S1 32 4095#32))))

/-- The reference's result as one term of its three arguments. -/
def refOut (x : S32x512x4096.Idx → EReal) (a1 a2 : IVec S4096 32) : S32x512x4096.Idx → EReal :=
  select (broadcastInDim S32x512x4096 ![2] bcast_S4096_S32x512x4096_2
      (Host.reduce IntOp.andi (inCol a1 a2) (constantI S_ 1 1#1) reducesTo_S4096x1_S4096_d1 h_S_))
    (Host.gather gather_S32x512x4096_S4096x1_S32x512x4096_01_2_n_n_2_1_325121 x (posCol a1 a2))
    (broadcastInDim S32x512x4096 ![] bcast_S_S32x512x4096 (constant (F := Ideal) S_ .f32 0x7FC00000#32))

attribute [local irreducible] Host.reduce Host.gather in
set_option maxHeartbeats 2000000 in
/-- The fold of the operations at the result buffer is `refOut` of the arguments. -/
theorem out_eq (V : Valuation τ sig (Elt Ideal)) :
    after ops V (main_v15 : DevRef τ sig)
      = refOut (V (main_arg0 : DevRef τ sig)) (V (main_arg1 : DevRef τ sig)) (V (main_arg2 : DevRef τ sig)) := by
  after_results_simp
  simp only [Cert.LibTRef.ofBuf_toBuf]
  rfl

set_option maxHeartbeats 1000000 in
theorem arg0_eq (V : Valuation τ sig (Elt Ideal)) : after ops V (main_arg0 : DevRef τ sig) = V (main_arg0 : DevRef τ sig) := by
  after_results_simp
set_option maxHeartbeats 1000000 in
theorem arg1_eq (V : Valuation τ sig (Elt Ideal)) : after ops V (main_arg1 : DevRef τ sig) = V (main_arg1 : DevRef τ sig) := by
  after_results_simp
set_option maxHeartbeats 1000000 in
theorem arg2_eq (V : Valuation τ sig (Elt Ideal)) : after ops V (main_arg2 : DevRef τ sig) = V (main_arg2 : DevRef τ sig) := by
  after_results_simp

/-- The run, read: the result at `refOut` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = refOut (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v15).trans (out_eq _), (h c main_arg0).trans (arg0_eq _),
      (h c main_arg1).trans (arg1_eq _), (h c main_arg2).trans (arg2_eq _)⟩)
    (run_main m ρ)

/-! ## Reading `refOut` at an entry -/

/-- An all-ones operand and a one initial value reduce, under "and", to one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  induction ((List.finRange s.numel).filter fun n => h.drop (s.rowMajor.symm n) = j) with
  | nil => rfl
  | cons n l ih => rw [List.foldl_cons, hx]; exact ih

/-- The gather along the time axis at entry (b, c, q): the signal at (b, c, start index of q read signed and clamped). -/
theorem gather_time_apply {α : Type} (x : S32x512x4096.Idx → α) (idx : IVec S4096x1 32) (b : Fin 32) (cc : Fin 512) (q : Fin 4096) :
    Host.gather gather_S32x512x4096_S4096x1_S32x512x4096_01_2_n_n_2_1_325121 x idx (ix3 b cc q) = x (ix3 b cc (Cert.Jitter.posIdx (idx (ix2 q (0 : Fin 1))))) := by
  unfold Host.gather
  refine congrArg x (funext fun a => Fin.ext ?_)
  match a with
  | ⟨0, _⟩ =>
    show gather_S32x512x4096_S4096x1_S32x512x4096_01_2_n_n_2_1_325121.start (ix3 b cc q) idx 0 + gather_S32x512x4096_S4096x1_S32x512x4096_01_2_n_n_2_1_325121.batchCoord (ix3 b cc q) 0 + gather_S32x512x4096_S4096x1_S32x512x4096_01_2_n_n_2_1_325121.offCoord (ix3 b cc q) 0 = b.val
    have hs : gather_S32x512x4096_S4096x1_S32x512x4096_01_2_n_n_2_1_325121.start (ix3 b cc q) idx 0 = 0 := by
      unfold GatherDims.start; rw [dif_neg (by decide)]
    have ho : gather_S32x512x4096_S4096x1_S32x512x4096_01_2_n_n_2_1_325121.offCoord (ix3 b cc q) 0 = b.val := by
      unfold GatherDims.offCoord; rw [dif_pos (by decide)]; rfl
    rw [GatherDims.batchCoord_eq_zero _ _ _ List.not_mem_nil, hs, ho]; omega
  | ⟨1, _⟩ =>
    show gather_S32x512x4096_S4096x1_S32x512x4096_01_2_n_n_2_1_325121.start (ix3 b cc q) idx 1 + gather_S32x512x4096_S4096x1_S32x512x4096_01_2_n_n_2_1_325121.batchCoord (ix3 b cc q) 1 + gather_S32x512x4096_S4096x1_S32x512x4096_01_2_n_n_2_1_325121.offCoord (ix3 b cc q) 1 = cc.val
    have hs : gather_S32x512x4096_S4096x1_S32x512x4096_01_2_n_n_2_1_325121.start (ix3 b cc q) idx 1 = 0 := by
      unfold GatherDims.start; rw [dif_neg (by decide)]
    have ho : gather_S32x512x4096_S4096x1_S32x512x4096_01_2_n_n_2_1_325121.offCoord (ix3 b cc q) 1 = cc.val := by
      unfold GatherDims.offCoord; rw [dif_pos (by decide)]; rfl
    rw [GatherDims.batchCoord_eq_zero _ _ _ List.not_mem_nil, hs, ho]; omega
  | ⟨2, _⟩ =>
    show gather_S32x512x4096_S4096x1_S32x512x4096_01_2_n_n_2_1_325121.start (ix3 b cc q) idx 2 + gather_S32x512x4096_S4096x1_S32x512x4096_01_2_n_n_2_1_325121.batchCoord (ix3 b cc q) 2 + gather_S32x512x4096_S4096x1_S32x512x4096_01_2_n_n_2_1_325121.offCoord (ix3 b cc q) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S32x512x4096_S4096x1_S32x512x4096_01_2_n_n_2_1_325121.startIndexMap from List.mem_singleton.mpr rfl)]
    have hsi : gather_S32x512x4096_S4096x1_S32x512x4096_01_2_n_n_2_1_325121.siIdx (ix3 b cc q) ⟨List.idxOf (2 : Fin 3) gather_S32x512x4096_S4096x1_S32x512x4096_01_2_n_n_2_1_325121.startIndexMap,
        List.idxOf_lt_length_iff.2 (List.mem_singleton.mpr rfl)⟩ = ix2 q (0 : Fin 1) := by
      funext e; refine Fin.ext ?_
      match e with
      | ⟨0, _⟩ => rfl
      | ⟨1, _⟩ => rfl
    rw [hsi]
    rfl

/-- The start index of time step q is the specification's position. -/
theorem posCol_apply (a1 a2 : IVec S4096 32) (q : Fin 4096) :
    posCol a1 a2 (ix2 q (0 : Fin 1)) = Cert.Jitter.pos q (a1 (ix1 q)) (a2 (ix1 q)) :=
  (broadcastInDim_apply _ _ _ (ix2 q (0 : Fin 1)) (ix1 q) (fun a => by match a with | ⟨0, _⟩ => rfl)).trans rfl

/-- The in-range test holds on the whole column. -/
theorem inCol_one (a1 a2 : IVec S4096 32) (i : S4096x1.Idx) : inCol a1 a2 i = 1#1 := by
  obtain ⟨q, z, rfl⟩ : ∃ (q : Fin 4096) (z : Fin 1), i = ix2 q z := ⟨i 0, i 1, eq_ix2 i⟩
  obtain rfl : z = 0 := Subsingleton.elim _ _
  show IntOp.andi (IntOp.cmpi .sge (posCol a1 a2 (ix2 q (0 : Fin 1))) 0#32) (IntOp.cmpi .sle (posCol a1 a2 (ix2 q (0 : Fin 1))) 4095#32) = 1#1
  rw [posCol_apply]
  exact Cert.Jitter.inRange_pos q _ _

/-- ENTRY (b, c, q) OF THE REFERENCE'S RESULT: the signal at (b, c, position of q). -/
theorem refOut_apply (x : S32x512x4096.Idx → EReal) (a1 a2 : IVec S4096 32) (b : Fin 32) (cc : Fin 512) (q : Fin 4096) :
    refOut x a1 a2 (ix3 b cc q) = x (ix3 b cc (Cert.Jitter.posIdx (Cert.Jitter.pos q (a1 (ix1 q)) (a2 (ix1 q))))) := by
  unfold refOut
  rw [select_apply,
    broadcastInDim_apply (![2] : Fin 1 → Fin 3) bcast_S4096_S32x512x4096_2 _ (ix3 b cc q) (ix1 q)
      (fun a => by match a with | ⟨0, _⟩ => rfl),
    reduce_andi_ones (inCol a1 a2) (constantI S_ 1 1#1) reducesTo_S4096x1_S4096_d1 h_S_ (inCol_one a1 a2) (fun _ => rfl) (ix1 q), select_one, gather_time_apply, posCol_apply]

end Cert.ReferenceIdeal.Hand

end
-- ==== Proof.Bridge.lean ====
/-
  The two programs compute one array.

  The kernel's program ends with its result at `outArr` of the signal and the three selector rows (the blocks of the
  grid, assembled); the reference ends with its result at `refOut` of the signal and the two draws (the lookup).  Entry
  by entry the first is the three-product form of the jitter at that entry's time step over the signal's row, the
  second is the row at the looked-up position: the pointwise law of the jitter makes them equal, with no condition on
  the signal's values.
-/
import proofs.«179251_j2370821947465_2_alg».proof.Proof.KernelBlocks
import proofs.«179251_j2370821947465_2_alg».proof.Proof.KernelSelectors
import proofs.«179251_j2370821947465_2_alg».proof.Proof.RefValue

noncomputable section

open Idealize.ShloMosaic Idealize.ShloMosaic.TcCoe Idealize.SL.Sem Idealize.ShloMosaic.ValueIdx

namespace Cert.KernelIdeal.Hand

open Cert.KernelIdeal Cert.KernelIdeal.Gen

/-- The kernel's run, read: the result array at `outArr` of the signal and of the selector rows computed from the
    draws, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v28)
        = outArr (m ((c : Thread nD τ).loc main_arg0)) (selfV (m ((c : Thread nD τ).loc main_arg1)))
            (nextV (m ((c : Thread nD τ).loc main_arg1)) (m ((c : Thread nD τ).loc main_arg2)))
            (prevV (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [V_main_arg0 m c, V_self m c, V_next m c, V_prev m c])), (h c).2⟩)
    (Cert.KernelIdeal.Value.run_blocks m ρ)

end Cert.KernelIdeal.Hand

namespace Cert.Bridge

/-- THE TWO RESULTS ARE ONE ARRAY, for any signal and any draws. -/
theorem result_eq (x : Cert.KernelIdeal.S32x512x4096.Idx → EReal) (a1 a2 : IVec Cert.KernelIdeal.S4096 32) :
    Cert.KernelIdeal.Hand.outArr x (Cert.KernelIdeal.Hand.selfV a1) (Cert.KernelIdeal.Hand.nextV a1 a2)
        (Cert.KernelIdeal.Hand.prevV a1 a2)
      = Cert.ReferenceIdeal.Hand.refOut x a1 a2 := by
  funext i
  obtain ⟨b, cc, q, rfl⟩ : ∃ (b : Fin 32) (cc : Fin 512) (q : Fin 4096), i = ix3 b cc q := ⟨i 0, i 1, i 2, eq_ix3 i⟩
  rw [Cert.ReferenceIdeal.Hand.refOut_apply]
  show Cert.KernelIdeal.Hand.outAt x _ _ _ b cc q = _
  unfold Cert.KernelIdeal.Hand.outAt
  rw [Cert.KernelIdeal.Hand.selfV_apply, Cert.KernelIdeal.Hand.nextV_apply, Cert.KernelIdeal.Hand.prevV_apply]
  exact Cert.Jitter.jitter_pointwise (fun s => x (ix3 b cc s)) q (a1 (ix1 q)) (a2 (ix1 q))

end Cert.Bridge

end
-- ==== Proof.lean ====
/-
  A jitter along the time axis of a [32, 512, 4096] signal: each time step keeps its value or, with the replacement draw
  below 12, takes the value of the step before or after it as the direction draw says (the first step always the second,
  the last always the one before it).

  The kernel's program computes three rows of 0/1 selectors from the draws and, in one pallas_call over a 32 × 4 grid of
  blocks that each hold the whole time axis, adds the signal against the first row, the signal rotated one step back
  against the second and the signal rotated one step forward against the third.  The reference computes the position to
  look up at each step and gathers the signal along the time axis there.  On the extended reals the two results are one
  array for every signal and all draws (Proof/Jitter.lean has the law at one time step; Proof/Bridge.lean puts the two
  arrays side by side), so the precondition is not used.  The kernel's frames are the generated ones; the reference's
  frame is its run with the result dropped; the ideal pass rewrote nothing.
-/
import proofs.«179251_j2370821947465_2_alg».proof.Defs
import proofs.«179251_j2370821947465_2_alg».proof.Proof.Gen.Kernel
import proofs.«179251_j2370821947465_2_alg».proof.Proof.Gen.Kernel.Skeleton
import proofs.«179251_j2370821947465_2_alg».proof.Proof.Gen.Kernel.Launch
import proofs.«179251_j2370821947465_2_alg».proof.Proof.Gen.Kernel.Points
import proofs.«179251_j2370821947465_2_alg».proof.Proof.Gen.Kernel.Frame
import proofs.«179251_j2370821947465_2_alg».proof.Proof.Gen.KernelIdeal
import proofs.«179251_j2370821947465_2_alg».proof.Proof.Gen.KernelIdeal.Skeleton
import proofs.«179251_j2370821947465_2_alg».proof.Proof.Gen.KernelIdeal.Launch
import proofs.«179251_j2370821947465_2_alg».proof.Proof.Gen.KernelIdeal.Points
import proofs.«179251_j2370821947465_2_alg».proof.Proof.Gen.KernelIdeal.Frame
import proofs.«179251_j2370821947465_2_alg».proof.Proof.Gen.ReferenceIdeal
import proofs.«179251_j2370821947465_2_alg».proof.Proof.Gen.Pre_finite_inputs
import proofs.«179251_j2370821947465_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Hand.run m ρ)

/-- From memories that agree on the signal and the draws, the kernel's program ends at the three-product array and the
    reference at the lookup array of the same arguments: one array. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2]
  exact (Cert.Bridge.result_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
